-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S512x8192 : Shape := ⟨2, ![512, 8192]⟩
abbrev S8192x8192 : Shape := ⟨2, ![8192, 8192]⟩
abbrev S2048x512 : Shape := ⟨2, ![2048, 512]⟩
abbrev S512x1024 : Shape := ⟨2, ![512, 1024]⟩
abbrev S2048x1024 : Shape := ⟨2, ![2048, 1024]⟩
abbrev S2048 : Shape := ⟨1, ![2048]⟩
abbrev S2048x1 : Shape := ⟨2, ![2048, 1]⟩
abbrev S1024 : Shape := ⟨1, ![1024]⟩
abbrev S1x1024 : Shape := ⟨2, ![1, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512x8192, .f32⟩
  | .hbm, ⟨3, _⟩ => ⟨S8192x8192, .f32⟩
  | .local _ .vmem, ⟨0, _⟩ => ⟨S2048x512, .f32⟩
  | .local _ .vmem, ⟨1, _⟩ => ⟨S2048x512, .f32⟩
  | .local _ .vmem, ⟨2, _⟩ => ⟨S512x1024, .f32⟩
  | .local _ .vmem, ⟨3, _⟩ => ⟨S512x1024, .f32⟩
  | .local _ .vmem, ⟨4, _⟩ => ⟨S2048x1024, .f32⟩
  | .local _ .vmem, ⟨5, _⟩ => ⟨S2048x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S8192x512_S512x8192_1_0 : S8192x512.Transposes [1, 0] S512x8192
  inb_S2048x512_S2048x512_0_0 : ∀ a, (![0, 0] : Fin 2 → Nat) a + S2048x512.size a ≤ S2048x512.size a
  h_S2048x512 : 0 < S2048x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  reduces_S2048x512_S2048 : S2048x512.Reduces [1] S2048
  shapeCasts_S2048_S2048x1 : S2048.ShapeCasts S2048x1
  reduces_S512x1024_S1024 : S512x1024.Reduces [0] S1024
  shapeCasts_S1024_S1x1024 : S1024.ShapeCasts S1x1024
  broadcasts_S2048x1_S2048x1024 : S2048x1.Broadcasts S2048x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x8192.size a
  hwx0_1 : ∀ i : grid0.Coords, EltTy.bits .f32 = 32 ∨ (Rect.block (s := S512x8192) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x8192.size a
  hwx0_2 : ∀ i : grid0.Coords, EltTy.bits .f32 = 32 ∨ (Rect.block (s := S8192x8192) S2048x1024.size (cc0_transform_2 i) (hinb0_2 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 20
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x8192, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192x512, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192x1, .f32⟩
  | .hbm, ⟨12, _⟩ => ⟨S1x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v1 : Ref sig .tc := ⟨.hbm, 6, rfl⟩
abbrev main_call1_v0 : Ref sig .tc := ⟨.hbm, 7, rfl⟩
abbrev main_call1_cst : Ref sig .tc := ⟨.hbm, 8, rfl⟩
abbrev main_call1_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.CosineSpec.lean ====
/-
  The specification: pairwise cosine similarity of the rows of two `[8192, 512]` arrays, over the extended reals.

  Entry `(n, m)` of the result is the dot product of row `n` of `x` with row `m` of `y`, divided by the larger of the
  product of the two rows' Euclidean norms and the floor `ε` (the binary32 word nearest `1e-8`, the same word in both
  programs, so it is never evaluated). A norm is the square root of the row's sum of squares. Nothing here is
  rearranged between the two programs: they differ only in how the same three sums over the 512 columns are indexed
  (the kernel reads `y` transposed, block by block), so no law beyond re-indexing a finite sum is needed and no
  finiteness of the inputs is used.
-/
import Idealize.ShloMosaic.PureOps.Ideal
import Idealize.ShloMosaic.Lib.ValueIdx

noncomputable section

namespace Cert.Cosine

open Idealize.ShloMosaic Idealize.ShloMosaic.ValueIdx

/-- The dot product of row `n` of `x` with row `m` of `y`. -/
def rowDot (x y : FVec Ideal ⟨2, ![8192, 512]⟩ .f32) (n m : Fin 8192) : Ideal .f32 :=
  ∑ k : Fin 512, x (ix2 n k) * y (ix2 m k)

/-- The Euclidean norm of row `n` of `x`: the square root of the sum of the squares of its 512 entries. -/
def rowNorm (x : FVec Ideal ⟨2, ![8192, 512]⟩ .f32) (n : Fin 8192) : Ideal .f32 :=
  Ideal.sqrt (∑ k : Fin 512, x (ix2 n k) * x (ix2 n k))

/-- The floor under the denominator: the binary32 word both programs print for `1e-8`. -/
def floorWord : Ideal .f32 := Ideal.ofBits .f32 0x322BCC77#32

/-- Cosine similarity of row `n` of `x` and row `m` of `y`: their dot product over `max (‖x_n‖ · ‖y_m‖) ε`. -/
def entry (x y : FVec Ideal ⟨2, ![8192, 512]⟩ .f32) (n m : Fin 8192) : Ideal .f32 :=
  Ideal.div (rowDot x y n m) (max (rowNorm x n * rowNorm y m) floorWord)

/-- The whole `[8192, 8192]` array of pairwise cosine similarities. -/
def cosSim (x y : FVec Ideal ⟨2, ![8192, 512]⟩ .f32) : FVec Ideal ⟨2, ![8192, 8192]⟩ .f32 :=
  fun i => entry x y (i 0) (i 1)

theorem cosSim_ix2 (x y : FVec Ideal ⟨2, ![8192, 512]⟩ .f32) (n m : Fin 8192) :
    cosSim x y (ix2 n m) = entry x y n m := rfl

end Cert.Cosine

end
-- ==== Proof.RefIsSpec.lean ====
/-
  The reference computes the specification.

  Read one operation at a time, the reference's result at `(n, m)` is the quotient of its `dot_general` entry — the sum
  over the 512 columns of `x[n, k] · y[m, k]` — by the maximum of `ε` and the product of two norms, each the square root
  of `0 +` a row's sum of squares, broadcast from a vector along a column (for `x`) or along a row (for `y`). The
  broadcasts only select coordinates: composed, they send `(n, m)` to row `n` of `x` and row `m` of `y`. The leading zero
  is the additive unit, so each norm is the specification's.
-/
import proofs.«150836_j39256001085989_1_alg».proof.Proof.Gen.ReferenceIdeal.Read
import proofs.«150836_j39256001085989_1_alg».proof.Proof.CosineSpec

noncomputable section

namespace Cert.Cosine.Ref

open Cert.ReferenceIdeal Cert.ReferenceIdeal.Read Idealize.ShloMosaic Idealize.ShloMosaic.ValueIdx

/-- The contraction's left index at `(n, m)`, column `k`: entry `(n, k)`. -/
theorem lidx_eq (i : S8192x8192.Idx) (k : Fin 512) : lidx_main_v0 i k = ix2 (i 0) k :=
  funext fun a => Fin.ext (by match a with | ⟨0, _⟩ => rfl | ⟨1, _⟩ => rfl)

/-- The contraction's right index at `(n, m)`, column `k`: entry `(m, k)`. -/
theorem ridx_eq (i : S8192x8192.Idx) (k : Fin 512) : ridx_main_v0 i k = ix2 (i 1) k :=
  funext fun a => Fin.ext (by match a with | ⟨0, _⟩ => rfl | ⟨1, _⟩ => rfl)

/-- The first norm's broadcasts, composed, read row `n`. -/
theorem nidx0_eq (i : S8192x8192.Idx) (k : Fin 512) :
    idx_main_call0_v1 (idx_main_v3 (idx_main_v5 i)) k = ix2 (i 0) k :=
  funext fun a => Fin.ext (by match a with | ⟨0, _⟩ => rfl | ⟨1, _⟩ => rfl)

/-- The second norm's broadcasts, composed, read row `m`. -/
theorem nidx1_eq (i : S8192x8192.Idx) (k : Fin 512) :
    idx_main_call1_v1 (idx_main_v4 (idx_main_v6 i)) k = ix2 (i 1) k :=
  funext fun a => Fin.ext (by match a with | ⟨0, _⟩ => rfl | ⟨1, _⟩ => rfl)

/-- The reference's result is the array of pairwise cosine similarities of its two arguments. -/
theorem val_eq_cosSim (x0 x1 : (⟨S8192x512, .f32⟩ : BufTy).Contents (Elt Ideal)) :
    val_main_v10 (F := Ideal) x0 x1 = cosSim x0 x1 := by
  funext i
  rw [val_main_v10_apply, val_main_v0_apply, val_main_v9_apply, val_main_v7_apply, val_main_v5_apply, val_main_v3_apply,
    val_main_v1_apply, val_main_call0_v1_apply, val_main_v6_apply, val_main_v4_apply, val_main_v2_apply,
    val_main_call1_v1_apply, val_main_v8_apply, val_main_cst_apply, val_main_call0_cst_apply, val_main_call1_cst_apply]
  simp only [val_main_call0_v0_apply, val_main_call1_v0_apply, lidx_eq, ridx_eq, nidx0_eq, nidx1_eq,
    Ideal.hostDivf_def, Ideal.maximumf_def, Ideal.mulf_def, Ideal.hostUnary_sqrt_def, Ideal.ofBits_def,
    Ideal.ofBits_zero_f32, zero_add]
  rfl

end Cert.Cosine.Ref

end
-- ==== Proof.LibColumnLayout.lean ====
/-
  Column layouts and row reductions read at an index.

  A reduction along the last axis with `keepdims` leaves a column: the reduced vector `[a]` is cast to `[a, 1]` and
  broadcast back to `[a, b]`, so entry `(p, c)` of the broadcast is entry `p` of the reduced vector. The reductions
  themselves, over the last axis of a rank-2 array and read at row `p`, are the sum (resp. the fold of `max`) over that
  row's entries. Stated over literal-size constructors (`ix1`, `ix2`) so that they fire on indices built by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnLayout

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`, whatever the unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    simp only [hu, hv, Nat.zero_mul, Nat.zero_add])

/-- The two together: a reduced vector kept as a column and broadcast back along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A float sum over the last axis of an `[a, b]` array from the zero word, read at row `p` at the extended reals: the sum
    of the row's entries. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The binary32 word of `−∞` is the least extended real. -/
theorem ofBits_neg_inf_f32 : Ideal.ofBits .f32 0xFF800000#32 = ⊥ := by simp [Ideal.ofBits, Ideal.ieee]

/-- A float maximum over the last axis of an `[a, b]` array from the `−∞` word, read at row `p` at the extended reals: the
    fold of `max` over the row's entries from `⊥`. -/
theorem rowMax_apply {a b : ℕ} (src : FVec Ideal ⟨2, ![a, b]⟩ .f32) (h : (⟨2, ![a, b]⟩ : Shape).Reduces [1] ⟨1, ![a]⟩)
    (hφ : FKind.Formats FTy.f32) (hacc : (0xFF800000#32 : BitVec FTy.f32.bits) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [ofBits_neg_inf_f32]
  refine congrArg (Finset.fold max ⊥ · Finset.univ) (funext fun k => congrArg src (funext fun ax => Fin.ext ?_))
  match ax with
  | ⟨0, _⟩ => rfl
  | ⟨1, _⟩ => rfl

/-- A row softmax read at an entry. The printed form: the row maximum (a float `max` reduction from `−∞`) kept as a
    column, subtracted, exponentiated; the row sum of the exponentials (a float `add` reduction from zero) kept as a column;
    the quotient. At `(m, n)`, over the extended reals, it is `exp (s[m, n] − max_n' s[m, n'])` over the sum of the same
    expression along row `m`. -/
theorem rowSoftmax_apply {a b : ℕ} (s : FVec Ideal ⟨2, ![a, b]⟩ .f32)
    (h : (⟨2, ![a, b]⟩ : Shape).Reduces [1] ⟨1, ![a]⟩) (hφ hφ' : FKind.Formats FTy.f32)
    (hmax : (0xFF800000#32 : BitVec FTy.f32.bits) = FKind.maximumf.neutral .f32 hφ)
    (hadd : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, b]⟩)
    (m : Fin a) (n : Fin b) :
    divf
        (exp (subf s (broadcastTo ⟨2, ![a, b]⟩
          (shapeCast ⟨2, ![a, 1]⟩ (multiReduction .maximumf [1] ⟨1, ![a]⟩ s 0xFF800000#32 h hφ hmax) hc) hb)))
        (broadcastTo ⟨2, ![a, b]⟩
          (shapeCast ⟨2, ![a, 1]⟩
            (multiReduction .add [1] ⟨1, ![a]⟩
              (exp (subf s (broadcastTo ⟨2, ![a, b]⟩
                (shapeCast ⟨2, ![a, 1]⟩ (multiReduction .maximumf [1] ⟨1, ![a]⟩ s 0xFF800000#32 h hφ hmax) hc) hb)))
              0x00000000#32 h hφ' hadd) hc) hb)
        (ix2 m n)
      = Ideal.div (Ideal.exp (s (ix2 m n) - (Finset.univ : Finset (Fin b)).fold max ⊥ (fun n' => s (ix2 m n'))))
          (∑ n' : Fin b, Ideal.exp (s (ix2 m n') - (Finset.univ : Finset (Fin b)).fold max ⊥ (fun n'' => s (ix2 m n'')))) := by
  have hnum : ∀ n' : Fin b,
      exp (subf s (broadcastTo ⟨2, ![a, b]⟩
          (shapeCast ⟨2, ![a, 1]⟩ (multiReduction .maximumf [1] ⟨1, ![a]⟩ s 0xFF800000#32 h hφ hmax) hc) hb)) (ix2 m n')
        = Ideal.exp (s (ix2 m n') - (Finset.univ : Finset (Fin b)).fold max ⊥ (fun n'' => s (ix2 m n''))) := by
    intro n'
    show Ideal.exp (s (ix2 m n') - broadcastTo ⟨2, ![a, b]⟩
          (shapeCast ⟨2, ![a, 1]⟩ (multiReduction .maximumf [1] ⟨1, ![a]⟩ s 0xFF800000#32 h hφ hmax) hc) hb (ix2 m n')) = _
    rw [keepdims_apply, rowMax_apply]
  rw [divf_apply, hnum n, keepdims_apply, rowSum_apply]
  exact congrArg (Ideal.div _) (Finset.sum_congr rfl fun n' _ => hnum n')

end Idealize.ShloMosaic.ColumnLayout

end
-- ==== Proof.LibRowLayout.lean ====
/-
  Row layouts and column reductions read at an index.

  A reduction along the FIRST axis of a rank-2 array with `keepdims` leaves a row: the reduced vector `[b]` is cast to
  `[1, b]` and broadcast back to `[a, b]`, so entry `(p, c)` of the broadcast is entry `c` of the reduced vector. The
  reduction itself, over the first axis of an `[a, b]` array and read at column `q`, is the sum over that column's
  entries. Stated over literal-size constructors (`ix1`, `ix2`) so that they fire on indices built by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.RowLayout

open Idealize.ShloMosaic Idealize.ShloMosaic.ValueIdx

variable {α : Type}

/-- A reduced vector `[b]` kept as the row `[1, b]` and broadcast back along the columns reads, at `(p, c)`, the
    vector's entry `c`, whatever the row `p`. -/
theorem keepdimsRow_apply {a b : ℕ} (x : (⟨1, ![b]⟩ : Shape).Idx → α) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ x h) h' (ix2 p c) = x (ix1 c) :=
  (broadcastTo_1b_ab_apply _ h' p c).trans (shapeCast_a_1a_apply x h 0 c)

/-- A float sum over the first axis of an `[a, b]` array from the zero word, read at column `q` at the extended reals: the
    sum of the column's entries. -/
theorem colSum_apply {a b : ℕ} (src : FVec Ideal ⟨2, ![a, b]⟩ .f32) (h : (⟨2, ![a, b]⟩ : Shape).Reduces [0] ⟨1, ![b]⟩)
    (hφ : FKind.Formats FTy.f32) (hacc : (0x00000000#32 : BitVec FTy.f32.bits) = FKind.add.neutral .f32 hφ) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

end Idealize.ShloMosaic.RowLayout

end
-- ==== Proof.BodyEntry.lean ====
/-
  The kernel body's result block, read at an entry.

  On a `[2048, 512]` block `a` of `x` and a `[512, 1024]` block `b` of the transposed `y`, the body stores, at `(p, q)`:
  the product block's entry `∑ₖ a[p, k] · b[k, q]` (a matrix product into a zero accumulator; the narrowing to bf16 is
  the identity on extended reals), divided by the maximum of `ε` and `‖a_p‖ · ‖b^q‖`, where `‖a_p‖` is the square root of
  row `p`'s sum of squares (a sum along the last axis, kept as a column and broadcast along the rows) and `‖b^q‖` the
  square root of column `q`'s sum of squares (a sum along the first axis, kept as a row and broadcast along the columns).
-/
import proofs.«150836_j39256001085989_1_alg».proof.Proof.Gen.KernelIdeal.Skeleton
import proofs.«150836_j39256001085989_1_alg».proof.Proof.LibColumnLayout
import proofs.«150836_j39256001085989_1_alg».proof.Proof.LibRowLayout
import Idealize.ShloMosaic.Lib.ValueIdx
import Idealize.ShloMosaic.Lib.Pipeline.Value
import Idealize.ShloMosaic.PureOps.Ideal.Laws

noncomputable section

namespace Cert.Cosine.Body

open Cert.KernelIdeal Cert.KernelIdeal.Gen Idealize.ShloMosaic Idealize.ShloMosaic.TcCoe Idealize.ShloMosaic.ValueIdx
open Idealize.ShloMosaic.ColumnLayout Idealize.ShloMosaic.RowLayout

/-- A square root of a vector, read at an index, is the square root of the element. -/
theorem sqrt_apply {s : Shape} (a : FVec Ideal s .f32) (i : s.Idx) : sqrt a i = Ideal.sqrt (a i) := rfl

/-- The left operand's index at result `i`: its row is the result's row … -/
theorem lhs_row (i : S2048x1024.Idx) (κ : (dot_S2048x512_S512x1024_S2048x1024_1_0_0_1_n_n).contr.Idx) :
    ((dot_S2048x512_S512x1024_S2048x1024_1_0_0_1_n_n).lhsIdx i κ 0).val = (i 0).val := by
  unfold DotDims.lhsIdx
  rw [dif_neg (show ¬(0 : Fin S2048x512.rank) ∈ (dot_S2048x512_S512x1024_S2048x1024_1_0_0_1_n_n).lhsBatch by decide),
    dif_pos (show (0 : Fin S2048x512.rank) ∈ (dot_S2048x512_S512x1024_S2048x1024_1_0_0_1_n_n).lhsNonContracting by decide)]
  rfl
/-- … and its column the contracted position. -/
theorem lhs_col (i : S2048x1024.Idx) (κ : (dot_S2048x512_S512x1024_S2048x1024_1_0_0_1_n_n).contr.Idx) :
    ((dot_S2048x512_S512x1024_S2048x1024_1_0_0_1_n_n).lhsIdx i κ 1).val = (κ ⟨0, by decide⟩).val :=
  (dot_S2048x512_S512x1024_S2048x1024_1_0_0_1_n_n).lhsIdx_val_of_single rfl i κ
/-- The right operand's index at result `i`: its row is the contracted position … -/
theorem rhs_row (i : S2048x1024.Idx) (κ : (dot_S2048x512_S512x1024_S2048x1024_1_0_0_1_n_n).contr.Idx) :
    ((dot_S2048x512_S512x1024_S2048x1024_1_0_0_1_n_n).rhsIdx i κ 0).val = (κ ⟨0, by decide⟩).val :=
  (dot_S2048x512_S512x1024_S2048x1024_1_0_0_1_n_n).rhsIdx_val_of_single rfl i κ
/-- … and its column the result's column. -/
theorem rhs_col (i : S2048x1024.Idx) (κ : (dot_S2048x512_S512x1024_S2048x1024_1_0_0_1_n_n).contr.Idx) :
    ((dot_S2048x512_S512x1024_S2048x1024_1_0_0_1_n_n).rhsIdx i κ 1).val = (i 1).val := by
  unfold DotDims.rhsIdx
  rw [dif_neg (show ¬(1 : Fin S512x1024.rank) ∈ (dot_S2048x512_S512x1024_S2048x1024_1_0_0_1_n_n).rhsBatch by decide),
    dif_pos (show (1 : Fin S512x1024.rank) ∈ (dot_S2048x512_S512x1024_S2048x1024_1_0_0_1_n_n).rhsNonContracting by decide)]
  rfl

/-- The product block into a zero accumulator, at `(p, q)`: row `p` of the left block against column `q` of the right
    block, summed over the 512 contracted positions. -/
theorem blockDot_entry (a : FVec Ideal S2048x512 .bf16) (b : FVec Ideal S512x1024 .bf16) (p : Fin 2048) (q : Fin 1024) :
    matmul dot_S2048x512_S512x1024_S2048x1024_1_0_0_1_n_n none a b (constant (F := Ideal) S2048x1024 .f32 0x00000000#32) (ix2 p q)
      = ∑ k : Fin 512, a (ix2 p k) * b (ix2 k q) := by
  refine (Ideal.matmul_constant_zero_apply dot_S2048x512_S512x1024_S2048x1024_1_0_0_1_n_n none a b (ix2 p q)).trans ?_
  rw [← Equiv.sum_comp (contrEquiv1 dot_S2048x512_S512x1024_S2048x1024_1_0_0_1_n_n 512 rfl rfl).symm]
  refine Finset.sum_congr rfl fun k _ => ?_
  have hk := contrEquiv1_symm_val dot_S2048x512_S512x1024_S2048x1024_1_0_0_1_n_n 512 rfl rfl k
  have el : (dot_S2048x512_S512x1024_S2048x1024_1_0_0_1_n_n).lhsIdx (ix2 p q) ((contrEquiv1 dot_S2048x512_S512x1024_S2048x1024_1_0_0_1_n_n 512 rfl rfl).symm k) = ix2 p k :=
    funext fun ax => Fin.ext (by
      match ax with
      | ⟨0, _⟩ => exact lhs_row _ _
      | ⟨1, _⟩ => exact (lhs_col _ _).trans hk)
  have er : (dot_S2048x512_S512x1024_S2048x1024_1_0_0_1_n_n).rhsIdx (ix2 p q) ((contrEquiv1 dot_S2048x512_S512x1024_S2048x1024_1_0_0_1_n_n 512 rfl rfl).symm k) = ix2 k q :=
    funext fun ax => Fin.ext (by
      match ax with
      | ⟨0, _⟩ => exact (rhs_row _ _).trans hk
      | ⟨1, _⟩ => exact rhs_col _ _)
  rw [el, er]

/-- The body's stored value at `(p, q)` of the block, as a function of the two loaded blocks. -/
theorem pay_entry (v0 : Vec Ideal S2048x512 .f32) (v1 : Vec Ideal S512x1024 .f32) (p : Fin 2048) (q : Fin 1024) :
    k0_pay1 (F := Ideal) v0 v1 (ix2 p q)
      = Ideal.div (∑ k : Fin 512, v0 (ix2 p k) * v1 (ix2 k q))
          (max (Ideal.sqrt (∑ k : Fin 512, v0 (ix2 p k) * v0 (ix2 p k))
              * Ideal.sqrt (∑ k : Fin 512, v1 (ix2 k q) * v1 (ix2 k q)))
            (Ideal.ofBits .f32 0x322BCC77#32)) := by
  unfold k0_pay1
  simp only [shapeCast_self]
  rw [divf_apply, maximumf_apply, mulf_apply, blockDot_entry, broadcastTo_a1_ab_apply, broadcastTo_1b_ab_apply,
    sqrt_apply, sqrt_apply, shapeCast_a_a1_apply, shapeCast_a_1a_apply]
  refine congrArg₂ Ideal.div rfl (congrArg₂ max (congrArg₂ (· * ·) (congrArg Ideal.sqrt ?_) (congrArg Ideal.sqrt ?_)) rfl)
  · exact rowSum_apply (mulf v0 v0) _ _ _ p
  · exact colSum_apply (mulf v1 v1) _ _ _ q

end Cert.Cosine.Body

end
-- ==== Proof.BlocksToArray.lean ====
/-
  From the blocks to the whole array.

  The grid has 4 × 8 points; point `(i, j)` reads rows `2048·i …` of `x` (all 512 columns), columns `1024·j …` of the
  transposed `y` (all 512 rows) — that is, rows `1024·j …` of `y` itself — and writes back block `(i, j)` of the
  `[8192, 8192]` result. So entry `(p, q)` of what point `(i, j)` writes is the cosine similarity of row `2048·i + p`
  of `x` and row `1024·j + q` of `y`: block `(i, j)` of the specification. The 32 blocks tile the result (entry
  `(r, s)` lies in the block of point `(r / 2048, s / 1024)`), so after the run the result array is the specification.
-/
import proofs.«150836_j39256001085989_1_alg».proof.Proof.Gen.KernelIdeal.Value
import proofs.«150836_j39256001085989_1_alg».proof.Proof.BodyEntry
import proofs.«150836_j39256001085989_1_alg».proof.Proof.CosineSpec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.Cosine.Array

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- A transposed matrix read at an index whose coordinates are known by value. -/
theorem transpose_of_val {α : Type} {a b : ℕ} (x : (⟨2, ![a, b]⟩ : Shape).Idx → α)
    (h : (⟨2, ![a, b]⟩ : Shape).Transposes [1, 0] ⟨2, ![b, a]⟩) (j : (⟨2, ![b, a]⟩ : Shape).Idx) (r : Fin a) (s : Fin b)
    (h0 : (j 0).val = s.val) (h1 : (j 1).val = r.val) : transpose ⟨2, ![b, a]⟩ [1, 0] x h j = x (ix2 r s) := by
  have hj : j = ix2 s r := funext fun ax => Fin.ext (by match ax with | ⟨0, _⟩ => exact h0 | ⟨1, _⟩ => exact h1)
  rw [hj]
  exact transpose_ix2_apply x h s r

/-- If row `p` of the left block is row `r` of `x`, and column `q` of the right block is row `s` of `y`, the body's
    stored value at `(p, q)` is the cosine similarity of those two rows. -/
theorem pay_eq_entry (x y : FVec Ideal ⟨2, ![8192, 512]⟩ .f32) (v0 : Vec Ideal S2048x512 .f32) (v1 : Vec Ideal S512x1024 .f32)
    (p : Fin 2048) (q : Fin 1024) (r s : Fin 8192)
    (h0 : ∀ k : Fin 512, v0 (ix2 p k) = x (ix2 r k)) (h1 : ∀ k : Fin 512, v1 (ix2 k q) = y (ix2 s k)) :
    k0_pay1 (F := Ideal) v0 v1 (ix2 p q) = Cosine.entry x y r s := by
  rw [Body.pay_entry]
  simp only [h0, h1]
  rfl

/-- Window 1's array when the region is entered: `y` transposed, the one host operation before the call. -/
theorem V_main_v0 (c : Dev nD) :
    (V m c main_v0 : S512x8192.Idx → Ideal .f32)
      = transpose S512x8192 [1, 0] (m ((c : Thread nD τ).loc main_arg1)) Cert.KernelIdeal.Facts₀.transposes_S8192x512_S512x8192_1_0 := by
  dsimp only [Gen.V, Gen.hostOps0]; after_results

/-- The printed index maps over the 32 grid points: the `x` window moves with the result's rows and stays at column
    block 0; the transposed-`y` window stays at row block 0 and moves with the result's columns; the result's block
    indices range over 4 × 8. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 3 ∧ win0_2.index t (1 : Fin 2) ≤ 7 :=
  (by decide +kernel : ∀ t : Fin grid0.N, _)

/-- Every block of the result is some point's. -/
theorem every_block_reached : ∀ (q0 : Fin 4) (q1 : Fin 8), ∃ t : Fin cfg0.N, win0_2.index t = ![q0.val, q1.val] :=
  (by decide +kernel : ∀ (q0 : Fin 4) (q1 : Fin 8), ∃ t : Fin grid0.N, win0_2.index t = ![q0.val, q1.val])

/-- What point `t` writes back is block `t` of the specification of the two argument arrays. -/
theorem written_block_eq (c : Dev nD) (t : Fin cfg0.N) :
    (dats m 0 c).flushed 2 t = ((cfg0.win 2).blk t).view.read (Elt Ideal)
      (cosSim (m ((c : Thread nD τ).loc main_arg0)) (m ((c : Thread nD τ).loc main_arg1))) := by
  rw [Cert.KernelIdeal.Value.flushed2]
  unfold out0_2
  rw [View.canon_unit_zero zero_offsets]
  simp only [View.ld_unit_zero (S := S2048x512) zero_offsets, View.ld_unit_zero (S := S512x1024) zero_offsets]
  obtain ⟨e00, e01, e10, e11, b0, b1⟩ := block_indices t
  funext j
  obtain ⟨p, q, rfl⟩ : ∃ (p : Fin 2048) (q : Fin 1024), j = ix2 p q := ⟨j 0, j 1, eq_ix2 j⟩
  show k0_pay1 (F := Ideal) (iblk m c 0 t) (iblk m c 1 t) (ix2 p q)
    = Cosine.entry _ _ ((((cfg0.win 2).blk t).view.emb (ix2 p q)) 0) ((((cfg0.win 2).blk t).view.emb (ix2 p q)) 1)
  refine pay_eq_entry _ _ (iblk m c 0 t) (iblk m c 1 t) p q _ _ (fun k => ?_) (fun k => ?_)
  · show V m c main_arg0 (((cfg0.win 0).blk t).view.emb (ix2 p k)) = _
    rw [V_main_arg0]
    refine congrArg _ (funext fun a => Fin.ext ?_)
    match a with
    | ⟨0, _⟩ =>
      show win0_0.index t (0 : Fin 2) * 2048 + 1 * p.val = win0_2.index t (0 : Fin 2) * 2048 + 1 * p.val
      omega
    | ⟨1, _⟩ =>
      show win0_0.index t (1 : Fin 2) * 512 + 1 * k.val = k.val
      omega
  · show V m c main_v0 (((cfg0.win 1).blk t).view.emb (ix2 k q)) = _
    refine (congrFun (V_main_v0 m c) _).trans ?_
    refine transpose_of_val _ _ _ _ k ?_ ?_
    · show win0_1.index t (0 : Fin 2) * 512 + 1 * k.val = k.val
      omega
    · show win0_1.index t (1 : Fin 2) * 1024 + 1 * q.val = win0_2.index t (1 : Fin 2) * 1024 + 1 * q.val
      omega

/-- An index of the result is in point `t`'s block iff each coordinate is in the block's range on its axis. -/
theorem mem_result_block (t : Fin cfg0.N) (i : S8192x8192.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v1).slice (win0_2.rect t)).set ↔ _
  rw [View.set_slice_whole, Rect.mem_set_unit]
  exact Iff.rfl

/-- The blocks tile the result: entry `(r, s)` lies in the block of the point with block index `(r / 2048, s / 1024)`. -/
theorem blocks_tile_result (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := every_block_reached ⟨(i 0).val / 2048, by omega⟩ ⟨(i 1).val / 1024, by omega⟩
  have q0 : win0_2.index t (0 : Fin 2) = (i 0).val / 2048 := congrFun ht 0
  have q1 : win0_2.index t (1 : Fin 2) = (i 1).val / 1024 := congrFun ht 1
  refine ⟨t, flush0_2 t, ?_⟩
  rw [mem_result_block]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 1024 ≤ (i 1).val ∧ (i 1).val < win0_2.index t (1 : Fin 2) * 1024 + 1024
    omega

/-- After the run the result array is the specification of the two argument arrays. -/
theorem result_eq_cosSim (c : Dev nD) : (dats m 0 c).arrAt 2 cfg0.N
    = cosSim (m ((c : Thread nD τ).loc main_arg0)) (m ((c : Thread nD τ).loc main_arg1)) :=
  (dats m 0 c).arrAt_eq_of_cover 2 _ (fun t _ => written_block_eq m c t) blocks_tile_result

/-- The kernel's run, read: the result at the pairwise cosine similarities of the arguments, the arguments unchanged. -/
theorem kernel_run : θ_run defs (onTc (τ := τ) (main (F := Ideal))) ⟨m, fun _ => 0, ρ⟩ fun r => ∀ c : Dev nD,
      r.2.mem ((c : Thread nD τ).loc main_v1)
        = cosSim (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq_cosSim m c), (h c).2⟩)
    (Cert.KernelIdeal.Value.run_blocks m ρ)

end Cert.Cosine.Array

end
-- ==== Proof.lean ====
/-
  Pairwise cosine similarity, a tiled kernel against its plain reference, equal over the extended reals.

  Both programs compute, for rows `x_n` of the first `[8192, 512]` argument and `y_m` of the second,
      out[n, m] = ⟨x_n, y_m⟩ / max (‖x_n‖ · ‖y_m‖) ε,
  with `⟨x_n, y_m⟩ = ∑ₖ x[n, k] · y[m, k]`, `‖v‖ = √(∑ₖ v[k]²)` and `ε` the same binary32 word in both. The reference
  does it with one contraction over the whole arrays and two row-norm vectors broadcast against each other. The kernel
  first transposes `y` on the host, then on a 4 × 8 grid takes a `[2048, 512]` block of `x` and a `[512, 1024]` block of
  the transposed `y`, multiplies them (bf16 operands, which at exact arithmetic are the same numbers), takes the row
  norms of the first block and the column norms of the second from the same loaded blocks, and writes one
  `[2048, 1024]` block of the result.

  Over the extended reals the two are the same expression entry by entry: every sum runs over the same 512 products in
  the same order, only addressed differently (row `m` of `y` is column `m` of its transpose; a block's row `p` is the
  array's row `2048·i + p`), and the reference's sums start from a zero that is the additive unit. No term is moved
  across a sum or cancelled, so the finiteness of the inputs is never used. The kernel's blocks tile the result, so
  its result array is that expression everywhere.

  The frames of the two kernel programs and the reference's run are the generated ones; the idealization rewrote no
  operation, so there is nothing to preserve.
-/
import proofs.«150836_j39256001085989_1_alg».proof.Defs
import proofs.«150836_j39256001085989_1_alg».proof.Proof.Gen.Kernel
import proofs.«150836_j39256001085989_1_alg».proof.Proof.Gen.Kernel.Frame
import proofs.«150836_j39256001085989_1_alg».proof.Proof.Gen.KernelIdeal
import proofs.«150836_j39256001085989_1_alg».proof.Proof.Gen.KernelIdeal.Frame
import proofs.«150836_j39256001085989_1_alg».proof.Proof.Gen.KernelIdeal.Value
import proofs.«150836_j39256001085989_1_alg».proof.Proof.Gen.ReferenceIdeal
import proofs.«150836_j39256001085989_1_alg».proof.Proof.Gen.ReferenceIdeal.Run
import proofs.«150836_j39256001085989_1_alg».proof.Proof.Gen.ReferenceIdeal.Read
import proofs.«150836_j39256001085989_1_alg».proof.Proof.Gen.Pre_finite_inputs
import proofs.«150836_j39256001085989_1_alg».proof.Proof.CosineSpec
import proofs.«150836_j39256001085989_1_alg».proof.Proof.RefIsSpec
import proofs.«150836_j39256001085989_1_alg».proof.Proof.BlocksToArray
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel at exact arithmetic. -/
theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the two arguments, both programs end with the array of pairwise cosine similarities of
    those arguments: the kernel block by block, the reference by its operations read one at a time. -/
theorem algebraic : Cert.algebraic_KernelIdeal_ReferenceIdeal := by
  intro m ρ m' ρ' _ hagree
  refine ⟨fun c => Cert.Cosine.cosSim
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Cosine.Array.kernel_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v10_eq, Cert.Cosine.Ref.val_eq_cosSim, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
